-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x4096x1024 .f32) (main_arg1 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S16384x2048 : Shape := ⟨2, ![16384, 2048]⟩
abbrev S512x1024 : Shape := ⟨2, ![512, 1024]⟩
abbrev S512x2048 : Shape := ⟨2, ![512, 2048]⟩
abbrev S512x1024x1 : Shape := ⟨3, ![512, 1024, 1]⟩
abbrev S512x1024x2 : Shape := ⟨3, ![512, 1024, 2]⟩
abbrev S4x4096x1024x2 : Shape := ⟨4, ![4, 4096, 1024, 2]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S16384x1024, .f32⟩
  | .hbm, ⟨3, _⟩ => ⟨S16384x2048, .f32⟩
  | .hbm, ⟨4, _⟩ => ⟨S4x4096x1024x2, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S512x2048, .f32⟩
  | .local _ .vmem, ⟨4, _⟩ => ⟨S512x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S512x1024_S512x1024x1 : S512x1024.ShapeCasts S512x1024x1
  concatenates_S512x1024x1_S512x1024x1_S512x1024x2_d2 : Shape.Concatenates [S512x1024x1, S512x1024x1] S512x1024x2 2
  shapeCasts_S512x1024x2_S512x2048 : S512x1024x2.ShapeCasts S512x2048
  inb_S512x2048_S512x2048_0_0 : ∀ a, (![0, 0] : Fin 2 → Nat) a + S512x2048.size a ≤ S512x2048.size a
  h_S512x2048 : 0 < S512x2048.numel
  shapeCasts_S16384x2048_S4x4096x1024x2 : S16384x2048.ShapeCasts S4x4096x1024x2
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S_ : Shape := ⟨0, ![]⟩
abbrev S4x4096x1024x1 : Shape := ⟨4, ![4, 4096, 1024, 1]⟩
abbrev S4x4096x1024x2 : Shape := ⟨4, ![4, 4096, 1024, 2]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024x1, .f32⟩
  | .hbm, ⟨12, _⟩ => ⟨S4x4096x1024x1, .f32⟩
  | .hbm, ⟨13, _⟩ => ⟨S4x4096x1024x2, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S4x4096x1024 : S_.BroadcastsInDim S4x4096x1024 (![] : Fin 0 → Fin S4x4096x1024.rank)
  bcast_S4x4096x1024_S4x4096x1024x1_0_1_2 : S4x4096x1024.BroadcastsInDim S4x4096x1024x1 (![0, 1, 2] : Fin 3 → Fin S4x4096x1024x1.rank)
  concatenates_S4x4096x1024x1_S4x4096x1024x1_S4x4096x1024x2_d3 : Shape.Concatenates [S4x4096x1024x1, S4x4096x1024x1] S4x4096x1024x2 3
  dot_S4x4096x1024_S1024x1024_S4x4096x1024_2_1_01_0_n_n_wf : DotDims.WF S4x4096x1024 S1024x1024 S4x4096x1024 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.Spec.lean ====
/-
  The specification. With `x : [4, 4096, 1024]`, `H : [1024, 1024]` and the scale `c = 2⁻⁵`, both programs return
  the array `[4, 4096, 1024, 2]` whose entry `(b, s, f, e)` is the scaled Hadamard coefficient
  `(∑ₖ x[b, s, k] · H[f, k]) · c` in the real slot `e = 0` and zero in the imaginary slot `e = 1`.

  The kernel computes it on the flattened rows `R = 4096 b + s` and interleaved columns `j = 2 f + e`:
  `flat` is that `[16384, 2048]` array as a function of the flattened `x`, and `flat_reshape` says the row-major
  re-reading of `flat` at `(b, s, f, e)` is the specification, because `(2 f + e) / 2 = f` and `(2 f + e) % 2 = e`.
-/
import Idealize.ShloMosaic.PureOps.Ideal
import Idealize.ShloMosaic.Lib.ValueIdx
import Idealize.ShloMosaic.Lib.Pipeline.Value

noncomputable section

open scoped BigOperators

namespace Cert.Hadamard

open Idealize.ShloMosaic Idealize.ShloMosaic.ValueIdx

/-- The kernel's literal scale, `0.03125`. -/
def scale : EReal := Ideal.ofBits .f32 0x3D000000#32

/-- Entry `(b, s, f, e)` of the result: the scaled coefficient in slot 0, zero in slot 1. -/
def spec (x : (⟨3, ![4, 4096, 1024]⟩ : Shape).Idx → EReal) (h : (⟨2, ![1024, 1024]⟩ : Shape).Idx → EReal)
    (b : Fin 4) (s : Fin 4096) (f : Fin 1024) (e : Fin 2) : EReal :=
  if e.val = 0 then (∑ k : Fin 1024, x (ix3 b s k) * h (ix2 f k)) * scale else 0

/-- The result array, index by index. -/
def G (x : (⟨3, ![4, 4096, 1024]⟩ : Shape).Idx → EReal) (h : (⟨2, ![1024, 1024]⟩ : Shape).Idx → EReal) :
    (⟨4, ![4, 4096, 1024, 2]⟩ : Shape).Idx → EReal :=
  fun i => spec x h (i 0) (i 1) (i 2) (i 3)

theorem G_apply (x : (⟨3, ![4, 4096, 1024]⟩ : Shape).Idx → EReal) (h : (⟨2, ![1024, 1024]⟩ : Shape).Idx → EReal)
    (b : Fin 4) (s : Fin 4096) (f : Fin 1024) (e : Fin 2) : G x h (ix4 b s f e) = spec x h b s f e := rfl

/-- Entry `(R, j)` of the flat form: row `R` of the flattened `x` against row `j / 2` of `H`, in the even columns. -/
def flatAt (xr : (⟨2, ![16384, 1024]⟩ : Shape).Idx → EReal) (h : (⟨2, ![1024, 1024]⟩ : Shape).Idx → EReal)
    (R : Fin 16384) (j : Fin 2048) : EReal :=
  if j.val % 2 = 0 then (∑ k : Fin 1024, xr (ix2 R k) * h (ix2 (⟨j.val / 2, by have := j.isLt; omega⟩ : Fin 1024) k)) * scale else 0

/-- The flat `[16384, 2048]` array the kernel's output window ends holding. -/
def flat (xr : (⟨2, ![16384, 1024]⟩ : Shape).Idx → EReal) (h : (⟨2, ![1024, 1024]⟩ : Shape).Idx → EReal) :
    (⟨2, ![16384, 2048]⟩ : Shape).Idx → EReal :=
  fun i => flatAt xr h (i 0) (i 1)

theorem flat_apply (xr : (⟨2, ![16384, 1024]⟩ : Shape).Idx → EReal) (h : (⟨2, ![1024, 1024]⟩ : Shape).Idx → EReal)
    (R : Fin 16384) (j : Fin 2048) : flat xr h (ix2 R j) = flatAt xr h R j := rfl

/-- The flat form of the flattened `x`, re-read row-major as `[4, 4096, 1024, 2]`, is the specification. -/
theorem flat_reshape (x : (⟨3, ![4, 4096, 1024]⟩ : Shape).Idx → EReal) (h : (⟨2, ![1024, 1024]⟩ : Shape).Idx → EReal)
    (h1 : (⟨3, ![4, 4096, 1024]⟩ : Shape).ShapeCasts ⟨2, ![16384, 1024]⟩)
    (h2 : (⟨2, ![16384, 2048]⟩ : Shape).ShapeCasts ⟨4, ![4, 4096, 1024, 2]⟩) :
    shapeCast (⟨4, ![4, 4096, 1024, 2]⟩ : Shape) (flat (shapeCast (⟨2, ![16384, 1024]⟩ : Shape) x h1) h) h2 = G x h := by
  funext i
  obtain ⟨b, s, f, e, rfl⟩ : ∃ (b : Fin 4) (s : Fin 4096) (f : Fin 1024) (e : Fin 2), i = ix4 b s f e :=
    ⟨i 0, i 1, i 2, i 3, eq_ix4 i⟩
  have hb := b.isLt; have hs := s.isLt; have hf := f.isLt; have he := e.isLt
  refine (shapeCast_apply _ h2 (ix4 b s f e)
    (ix2 (⟨b.val * 4096 + s.val, by omega⟩ : Fin 16384) (⟨2 * f.val + e.val, by omega⟩ : Fin 2048)) ?_).trans ?_
  · rw [Shape.rowMajor_val_two, Shape.rowMajor_val_four]
    show (b.val * 4096 + s.val) * 2048 + (2 * f.val + e.val) = ((b.val * 4096 + s.val) * 1024 + f.val) * 2 + e.val
    omega
  rw [flat_apply, G_apply]
  unfold flatAt spec
  have hmod : (2 * f.val + e.val) % 2 = e.val := by omega
  have hdiv : (2 * f.val + e.val) / 2 = f.val := by omega
  by_cases h0 : e.val = 0
  · rw [if_pos h0, if_pos (show (2 * f.val + e.val) % 2 = 0 by omega)]
    refine congrArg (· * scale) (Finset.sum_congr rfl fun k _ => ?_)
    have ef : (⟨(2 * f.val + e.val) / 2, by omega⟩ : Fin 1024) = f := Fin.ext hdiv
    rw [ef]
    refine congrArg (· * h (ix2 f k)) ?_
    refine shapeCast_apply _ h1 (ix2 (⟨b.val * 4096 + s.val, by omega⟩ : Fin 16384) k) (ix3 b s k) ?_
    rw [Shape.rowMajor_val_two, Shape.rowMajor_val_three]
    rfl
  · rw [if_neg h0, if_neg (show ¬ (2 * f.val + e.val) % 2 = 0 by omega)]

end Cert.Hadamard

end
-- ==== Proof.Payload.lean ====
/-
  What the kernel body stores, read at an index. From a block `x0 : [512, 1024]` of rows of the flattened `x`
  and the whole of `x1 = H : [1024, 1024]` the body forms the products `P[r, f] = ∑ₖ x0[r, k] · x1[f, k]` (both
  operands contracted along their last axis; rounding to the narrower format is the identity on exact values, and
  the accumulator starts at zero), scales them by `2⁻⁵`, joins them with zeros along a new last axis of extent 2
  and re-reads the `[512, 1024, 2]` result row-major as `[512, 2048]`: column `j` of row `r` is slot `j % 2` of
  entry `(r, j / 2)`, that is `P[r, j / 2] · 2⁻⁵` for even `j` and zero for odd `j`.
-/
import proofs.«169830_j31731218383235_2_alg».proof.Proof.Gen.KernelIdeal.Skeleton
import proofs.«169830_j31731218383235_2_alg».proof.Proof.Spec
import Idealize.ShloMosaic.Lib.Pipeline.Value
import Idealize.ShloMosaic.Lib.ValueIdx
import Idealize.ShloMosaic.PureOps.Ideal.Laws

noncomputable section

open scoped BigOperators

namespace Cert.Hadamard.Payload

open Idealize.ShloMosaic Idealize.ShloMosaic.ValueIdx
open Cert.KernelIdeal Cert.KernelIdeal.Gen Cert.Hadamard

/-- The left operand's row coordinate is the result's row. -/
theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl

/-- The right operand's row coordinate is the result's column. -/
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- The body's matrix product at `(r, f)`: row `r` of the left operand against row `f` of the right one. -/
theorem product_apply (a : FVec Ideal S512x1024 .bf16) (b : FVec Ideal S1024x1024 .bf16) (r : Fin 512) (f : Fin 1024) :
    matmul dot_S512x1024_S1024x1024_S512x1024_1_1_0_0_n_n none a b (constant S512x1024 .f32 0x00000000#32) (ix2 r f)
      = ∑ k : Fin 1024, a (ix2 r k) * b (ix2 f k) := by
  simp only [matmul]
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r f)
      ((contrEquiv1 dot_S512x1024_S1024x1024_S512x1024_1_1_0_0_n_n 1024 rfl rfl).symm k) = ix2 r k :=
    funext fun d => Fin.ext (by
      match d with
      | ⟨0, _⟩ => exact lhs_row _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r f)
      ((contrEquiv1 dot_S512x1024_S1024x1024_S512x1024_1_1_0_0_n_n 1024 rfl rfl).symm k) = ix2 f k :=
    funext fun d => Fin.ext (by
      match d with
      | ⟨0, _⟩ => exact rhs_row _ _
      | ⟨1, _⟩ => exact (dot_S512x1024_S1024x1024_S512x1024_1_1_0_0_n_n.rhsIdx_val_of_single rfl _ _).trans hk)
  rw [el, er]

/-- THE STORED VALUE at `(r, j)`: the scaled product at `(r, j / 2)` in the even columns, zero in the odd ones. -/
theorem pay_apply (x0 : Vec Ideal S512x1024 .f32) (x1 : Vec Ideal S1024x1024 .f32) (r : Fin 512) (j : Fin 2048) :
    k0_pay1 (F := Ideal) x0 x1 (ix2 r j)
      = if j.val % 2 = 0 then
          (∑ k : Fin 1024, x0 (ix2 r k) * x1 (ix2 (⟨j.val / 2, by have := j.isLt; omega⟩ : Fin 1024) k)) * scale
        else 0 := by
  have hj := j.isLt
  have hr := r.isLt
  unfold k0_pay1
  refine (shapeCast_apply _ _ (ix2 r j)
    (ix3 r (⟨j.val / 2, by omega⟩ : Fin 1024) (⟨j.val % 2, by omega⟩ : Fin 2)) ?_).trans ?_
  · rw [Shape.rowMajor_val_three, Shape.rowMajor_val_two]
    show (r.val * 1024 + j.val / 2) * 2 + j.val % 2 = r.val * 2048 + j.val
    omega
  by_cases h0 : j.val % 2 = 0
  · rw [if_pos h0]
    refine (concatenate_pair_apply_left (s₁ := S512x1024x1) (s₂ := S512x1024x1) (2 : Fin 3) _ _ _
      (ix3 r (⟨j.val / 2, by omega⟩ : Fin 1024) (⟨j.val % 2, by omega⟩ : Fin 2)) rfl
      (ix3 r (⟨j.val / 2, by omega⟩ : Fin 1024) (⟨0, Nat.one_pos⟩ : Fin 1)) (fun d => by
        match d with
        | ⟨0, _⟩ => rfl
        | ⟨1, _⟩ => rfl
        | ⟨2, _⟩ => exact h0.symm)).trans ?_
    refine (shapeCast_apply _ _ (ix3 r (⟨j.val / 2, by omega⟩ : Fin 1024) (⟨0, Nat.one_pos⟩ : Fin 1))
      (ix2 r (⟨j.val / 2, by omega⟩ : Fin 1024)) ?_).trans ?_
    · rw [Shape.rowMajor_val_three, Shape.rowMajor_val_two]
      show r.val * 1024 + j.val / 2 = (r.val * 1024 + j.val / 2) * 1 + 0
      omega
    show (_ : EReal) * scale = _
    refine (congrArg (· * scale) (product_apply _ _ r (⟨j.val / 2, by omega⟩ : Fin 1024))).trans ?_
    refine congrArg (· * scale) (Finset.sum_congr rfl fun k _ => ?_)
    refine congrArg (· * x1 (ix2 (⟨j.val / 2, by omega⟩ : Fin 1024) k)) ?_
    exact congrFun (shapeCast_self x0 _) (ix2 r k)
  · rw [if_neg h0]
    refine (concatenate_pair_apply_right (s₁ := S512x1024x1) (s₂ := S512x1024x1) (2 : Fin 3) _ _ _
      (ix3 r (⟨j.val / 2, by omega⟩ : Fin 1024) (⟨j.val % 2, by omega⟩ : Fin 2)) rfl rfl
      (ix3 r (⟨j.val / 2, by omega⟩ : Fin 1024) (⟨0, Nat.one_pos⟩ : Fin 1)) (fun d hd => by
        match d with
        | ⟨0, _⟩ => rfl
        | ⟨1, _⟩ => rfl
        | ⟨2, _⟩ => exact absurd rfl hd) (by show 0 + 1 = j.val % 2; omega)).trans ?_
    refine (shapeCast_apply _ _ (ix3 r (⟨j.val / 2, by omega⟩ : Fin 1024) (⟨0, Nat.one_pos⟩ : Fin 1))
      (ix2 r (⟨j.val / 2, by omega⟩ : Fin 1024)) ?_).trans ?_
    · rw [Shape.rowMajor_val_three, Shape.rowMajor_val_two]
      show r.val * 1024 + j.val / 2 = (r.val * 1024 + j.val / 2) * 1 + 0
      omega
    exact Ideal.ofBits_zero_f32

/-- A BLOCK OF ROWS of the flat result. If `x0` is the block of rows `512 T, …, 512 T + 511` of the flattened `x` (`h0`)
    and `x1` is all of `H` (`h1`), the stored value at `y` is the flat result at the index `i` that lies `512 T` rows
    further down in the same column. -/
theorem block_eq (x0 : Vec Ideal S512x1024 .f32) (x1 : Vec Ideal S1024x1024 .f32)
    (xr : (⟨2, ![16384, 1024]⟩ : Shape).Idx → EReal) (hh : (⟨2, ![1024, 1024]⟩ : Shape).Idx → EReal) (T : Nat)
    (y : (⟨2, ![512, 2048]⟩ : Shape).Idx) (i : (⟨2, ![16384, 2048]⟩ : Shape).Idx)
    (hi0 : (i 0).val = T * 512 + (y 0).val) (hi1 : (i 1).val = (y 1).val)
    (h0 : ∀ (r : Fin 512) (k : Fin 1024) (R : Fin 16384), R.val = T * 512 + r.val → x0 (ix2 r k) = xr (ix2 R k))
    (h1 : ∀ f k : Fin 1024, x1 (ix2 f k) = hh (ix2 f k)) :
    k0_pay1 (F := Ideal) x0 x1 y = flat xr hh i := by
  obtain ⟨r, j, rfl⟩ : ∃ (r : Fin 512) (j : Fin 2048), y = ix2 r j := ⟨y 0, y 1, eq_ix2 y⟩
  obtain ⟨R, J, rfl⟩ : ∃ (R : Fin 16384) (J : Fin 2048), i = ix2 R J := ⟨i 0, i 1, eq_ix2 i⟩
  obtain rfl : J = j := Fin.ext hi1
  refine (pay_apply x0 x1 r J).trans ?_
  rw [flat_apply]
  unfold flatAt
  by_cases h : J.val % 2 = 0
  · rw [if_pos h, if_pos h]
    refine congrArg (· * scale) (Finset.sum_congr rfl fun k _ => ?_)
    rw [h0 r k R hi0, h1]
  · rw [if_neg h, if_neg h]

end Cert.Hadamard.Payload

end
-- ==== Proof.KernelValue.lean ====
/-
  The kernel's result is the specification. The program flattens `x` to `[16384, 1024]` (a row-major re-reading),
  runs the body at 32 grid points, and re-reads the `[16384, 2048]` output row-major as `[4, 4096, 1024, 2]`.
  Point `t` is given rows `512 t, …, 512 t + 511` of the flattened `x` and all of `H`, and writes back the same rows
  of the output, all 2048 columns: those rows of the flat result `flat`. The 32 row blocks tile the output, so it
  ends as `flat` of the flattened `x` and `H`, and its re-reading is the specification (`flat_reshape`).
-/
import proofs.«169830_j31731218383235_2_alg».proof.Proof.Gen.KernelIdeal.Frame
import proofs.«169830_j31731218383235_2_alg».proof.Proof.Payload
import proofs.«169830_j31731218383235_2_alg».proof.Proof.Spec
import Idealize.ShloMosaic.Lib.Pipeline.Value
import Idealize.ShloMosaic.Lib.StableHlo.Run

noncomputable section

namespace Cert.Hadamard.KernelValue

open Cert.KernelIdeal Cert.KernelIdeal.Gen Idealize.ShloMosaic Idealize.ShloMosaic.TcCoe Idealize.SL.Sem
open Idealize.ShloMosaic.ValueIdx Idealize.ShloMosaic.StableHlo Cert.Hadamard
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 grid points: the first input and the output take row block `t`, column block 0; the
    second input is always its one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The region finds the first window's array at the flattened `x`. -/
theorem V_main_v0 (c : Dev nD) :
    (V m c main_v0 : S16384x1024.Idx → EReal)
      = shapeCast S16384x1024 (m ((c : Thread nD τ).loc main_arg0)) shapeCasts_S4x4096x1024_S16384x1024 := by
  show StableHlo.after hostOps0 (fun b => m (c, b)) (Proc.devRef .tc main_v0) = _
  after_results
  rfl

/-- WHAT POINT `t` WRITES BACK is its block of rows of the flat result. -/
theorem flushed_eq (c : Dev nD) (t : Fin cfg0.N) :
    (dats m 0 c).flushed 2 t
      = ((cfg0.win 2).blk t).view.read (Elt Ideal) (flat (V m c main_v0) (V m c main_arg1)) := by
  show (cfg0.win 2).cut (grid0.coords t) ((dats m 0 c).after 2 t) = _
  rw [after0_2]
  unfold out0_2
  rw [View.canon_unit_zero hz]
  simp only [View.ld_unit_zero (S := S512x1024) hz, View.ld_unit_zero (S := S1024x1024) hz]
  obtain ⟨e0, e1, e2, e3, e4, e5⟩ := idx_facts t
  funext y
  show k0_pay1 (iblk m c 0 t) (iblk m c 1 t) y
    = flat (V m c main_v0) (V m c main_arg1) (((cfg0.win 2).blk t).view.emb y)
  have hy0 : (y 0).val < 512 := (y 0).isLt
  have hy1 : (y 1).val < 2048 := (y 1).isLt
  refine Payload.block_eq _ _ _ _ (win0_2.index t (0 : Fin 2)) y _ ?_ ?_ ?_ ?_
  · show win0_2.index t (0 : Fin 2) * 512 + 1 * (y 0).val = _
    omega
  · show win0_2.index t (1 : Fin 2) * 2048 + 1 * (y 1).val = _
    omega
  · intro r k R hR
    show V m c main_v0 (((cfg0.win 0).blk t).view.emb (ix2 r k)) = V m c main_v0 (ix2 R k)
    refine congrArg (V m c main_v0) (funext fun a => Fin.ext ?_)
    match a with
    | ⟨0, _⟩ => show win0_0.index t (0 : Fin 2) * 512 + 1 * r.val = R.val; omega
    | ⟨1, _⟩ => show win0_0.index t (1 : Fin 2) * 1024 + 1 * k.val = k.val; omega
  · intro f k
    show V m c main_arg1 (((cfg0.win 1).blk t).view.emb (ix2 f k)) = V m c main_arg1 (ix2 f k)
    refine congrArg (V m c main_arg1) (funext fun a => Fin.ext ?_)
    match a with
    | ⟨0, _⟩ => show win0_1.index t (0 : Fin 2) * 1024 + 1 * f.val = f.val; omega
    | ⟨1, _⟩ => show win0_1.index t (1 : Fin 2) * 1024 + 1 * k.val = k.val; omega

/-- An index of the output is in point `t`'s block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v1).slice (win0_2.rect t)).set ↔ _
  rw [View.set_slice_whole, Rect.mem_set_unit]
  exact Iff.rfl

/-- Row `R` of the output lies in the block of point `R / 512`: the 32 blocks tile the output. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hN : grid0.N = 32 := N_0
  refine ⟨(⟨(i 0).val / 512, by show (i 0).val / 512 < grid0.N; omega⟩ : Fin cfg0.N), flush0_2 _, ?_⟩
  rw [mem_blk]
  obtain ⟨e0, e1, e2, e3, e4, e5⟩ := idx_facts (⟨(i 0).val / 512, by show (i 0).val / 512 < grid0.N; omega⟩ : Fin cfg0.N)
  have e4' : win0_2.index (⟨(i 0).val / 512, by show (i 0).val / 512 < grid0.N; omega⟩ : Fin cfg0.N) (0 : Fin 2) = (i 0).val / 512 := e4
  intro a
  match a with
  | ⟨0, _⟩ =>
    show win0_2.index _ (0 : Fin 2) * 512 ≤ (i 0).val ∧ (i 0).val < win0_2.index _ (0 : Fin 2) * 512 + 512
    omega
  | ⟨1, _⟩ =>
    show win0_2.index _ (1 : Fin 2) * 2048 ≤ (i 1).val ∧ (i 1).val < win0_2.index _ (1 : Fin 2) * 2048 + 2048
    omega

/-- THE OUTPUT ARRAY after the region is the flat result of the flattened `x` and `H`. -/
theorem final (c : Dev nD) :
    (dats m 0 c).arrAt 2 cfg0.N = flat (V m c main_v0) (V m c main_arg1) :=
  (dats m 0 c).arrAt_eq_of_cover 2 (flat (V m c main_v0) (V m c main_arg1)) (fun t _ => flushed_eq m c t) cover

/-- The program's result is the output array re-read row-major as `[4, 4096, 1024, 2]`: the one operation after
    the region reads the array the region left. -/
theorem tail_eq (c : Dev nD) :
    Pipeline.afterTail₀ cfgs (dats m) 0 (V0 m) [hostOps1] c main_v2
      = shapeCast S4x4096x1024x2 ((dats m 0 c).arrAt 2 cfg0.N) shapeCasts_S16384x2048_S4x4096x1024x2 := by
  unfold Pipeline.afterTail₀
  show StableHlo.after hostOps1 _ (Proc.devRef .tc main_v2) = _
  after_results
  have hw := Pipeline.withArrays_arr spec0 launch0.win.arr_inj c (V0 m c) (fun w => (dats m 0 c).arrAt w cfg0.N) 2
  exact congrArg (fun v => shapeCast S4x4096x1024x2 v shapeCasts_S16384x2048_S4x4096x1024x2) hw

/-- THE KERNEL'S RESULT is the specification of the argument arrays: the re-reading of the flat result of the
    flattened `x` (`flat_reshape`). -/
theorem result_eq (c : Dev nD) :
    Pipeline.afterTail₀ cfgs (dats m) 0 (V0 m) [hostOps1] c main_v2
      = G (m ((c : Thread nD τ).loc main_arg0)) (m ((c : Thread nD τ).loc main_arg1)) := by
  rw [tail_eq, final, V_main_v0, V_main_arg1]
  exact flat_reshape _ _ _ _

/-- Every weakly fair execution of the program terminates with its result at the specification of the argument
    arrays, and the argument arrays unchanged. -/
theorem run : θ_run defs (onTc (τ := τ) (main (F := Ideal))) ⟨m, fun _ => 0, ρ⟩ fun r => ∀ c : Dev nD,
      r.2.mem ((c.tc : Thread nD τ).loc main_v2)
        = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.Hadamard.KernelValue

end
-- ==== Proof.Consts.lean ====
/-
  The float constants the two programs spell, as the extended reals their bit patterns denote, and the one
  arithmetic fact that joins the two programs' scales: the reference divides one by the square root of 1024,
  the kernel multiplies by the literal 2⁻⁵, and √1024 = 32, so both are the real number 1/32.
-/
import Idealize.ShloMosaic.PureOps.Ideal

noncomputable section

namespace Cert.Hadamard.Consts

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `1.0` denotes the real 1. -/
theorem ofBits_one : Ideal.ofBits .f32 0x3F800000#32 = ((1 : ℝ) : EReal) := by
  simp [Ideal.ofBits, Ideal.ieee, -EReal.coe_mul]; norm_num

/-- The pattern of `0.03125` denotes the real 1/32 (it is the dyadic 2⁻⁵ exactly). -/
theorem ofBits_inv32 : Ideal.ofBits .f32 0x3D000000#32 = ((1 / 32 : ℝ) : EReal) := by
  simp [Ideal.ofBits, Ideal.ieee, -EReal.coe_mul]; norm_num

/-- 1024 is the square of 32. -/
theorem sqrt_1024 : Real.sqrt 1024 = 32 := by
  rw [show (1024 : ℝ) = 32 ^ 2 by norm_num]
  exact Real.sqrt_sq (by norm_num)

/-- The reference's scale `1 / √1024` is the kernel's literal: both are 1/32. -/
theorem scale_eq :
    Ideal.div (Ideal.ofBits .f32 0x3F800000#32) (Ideal.sqrt (Ideal.ofBits .f32 0x44800000#32))
      = Ideal.ofBits .f32 0x3D000000#32 := by
  rw [ofBits_1024, ofBits_one, ofBits_inv32, Ideal.sqrt_coe, if_neg (by norm_num), sqrt_1024,
    Ideal.div_coe (by norm_num : (32 : ℝ) ≠ 0), ← EReal.coe_mul, one_mul]

end Cert.Hadamard.Consts

end
-- ==== Proof.RefValue.lean ====
/-
  The reference's result is the specification. Its last operation joins, along a new last axis of extent 2,
  the scaled products `einsum(x, H) · (1 / √1024)` and an array of zeros: slot 0 of entry `(b, s, f, ·)` reads the
  product at `(b, s, f)`, the contraction `∑ₖ x[b, s, k] · H[f, k]` times a scale that is the real number 1/32,
  and slot 1 reads the zero constant.
-/
import proofs.«169830_j31731218383235_2_alg».proof.Proof.Gen.ReferenceIdeal.Read
import proofs.«169830_j31731218383235_2_alg».proof.Proof.Consts
import proofs.«169830_j31731218383235_2_alg».proof.Proof.Spec

noncomputable section

open scoped BigOperators

namespace Cert.Hadamard.RefValue

open Idealize.ShloMosaic Idealize.ShloMosaic.ValueIdx
open Cert.ReferenceIdeal Cert.ReferenceIdeal.Gen Cert.ReferenceIdeal.Read Cert.Hadamard

/-- The scaled product at `(b, s, f)`: the contraction over the last axes of `x` and `H`, times 1/32. -/
theorem scaled_apply (x : S4x4096x1024.Idx → EReal) (h : S1024x1024.Idx → EReal) (b : Fin 4) (s : Fin 4096) (f : Fin 1024) :
    val_main_v4 (F := Ideal) x h (ix3 b s f) = (∑ k : Fin 1024, x (ix3 b s k) * h (ix2 f k)) * scale := by
  have el : ∀ k : Fin 1024, lidx_main_v2 (ix3 b s f) k = ix3 b s k := fun k =>
    funext fun a => Fin.ext (by match a with | ⟨0, _⟩ => rfl | ⟨1, _⟩ => rfl | ⟨2, _⟩ => rfl)
  have er : ∀ k : Fin 1024, ridx_main_v2 (ix3 b s f) k = ix2 f k := fun k =>
    funext fun a => Fin.ext (by match a with | ⟨0, _⟩ => rfl | ⟨1, _⟩ => rfl)
  rw [val_main_v4_apply, val_main_v2_apply, val_main_v3_apply, val_main_v1_apply, val_main_cst_0_apply,
    val_main_v0_apply, val_main_cst_apply]
  simp only [el, er]
  show (∑ k : Fin 1024, x (ix3 b s k) * h (ix2 f k))
      * Ideal.div (Ideal.ofBits .f32 0x3F800000#32) (Ideal.sqrt (Ideal.ofBits .f32 0x44800000#32)) = _
  rw [Consts.scale_eq]
  rfl

/-- The array of zeros at any index. -/
theorem zeros_apply (i : S4x4096x1024.Idx) : val_main_v5 (F := Ideal) i = 0 := by
  rw [val_main_v5_apply, val_main_cst_1_apply]
  exact Ideal.ofBits_zero_f32

/-- THE REFERENCE'S RESULT is the specification, index by index. -/
theorem result_eq (x : S4x4096x1024.Idx → EReal) (h : S1024x1024.Idx → EReal) :
    val_main_v8 (F := Ideal) x h = G x h := by
  funext i
  obtain ⟨b, s, f, e, rfl⟩ : ∃ (b : Fin 4) (s : Fin 4096) (f : Fin 1024) (e : Fin 2), i = ix4 b s f e :=
    ⟨i 0, i 1, i 2, i 3, eq_ix4 i⟩
  rw [G_apply]
  unfold val_main_v8 spec
  have he := e.isLt
  by_cases h0 : e.val = 0
  · rw [if_pos h0]
    refine (concatenate_pair_apply_left (s₁ := S4x4096x1024x1) (s₂ := S4x4096x1024x1) (3 : Fin 4) _ _ _ (ix4 b s f e) rfl
      (ix4 b s f (⟨0, Nat.one_pos⟩ : Fin 1)) (fun a => by
        match a with
        | ⟨0, _⟩ => rfl
        | ⟨1, _⟩ => rfl
        | ⟨2, _⟩ => rfl
        | ⟨3, _⟩ => exact h0.symm)).trans ?_
    rw [val_main_v6_apply]
    have ei : idx_main_v6 (ix4 b s f (⟨0, Nat.one_pos⟩ : Fin 1)) = ix3 b s f :=
      funext fun a => Fin.ext (by match a with | ⟨0, _⟩ => rfl | ⟨1, _⟩ => rfl | ⟨2, _⟩ => rfl)
    rw [ei]
    exact scaled_apply x h b s f
  · rw [if_neg h0]
    refine (concatenate_pair_apply_right (s₁ := S4x4096x1024x1) (s₂ := S4x4096x1024x1) (3 : Fin 4) _ _ _ (ix4 b s f e) rfl rfl
      (ix4 b s f (⟨0, Nat.one_pos⟩ : Fin 1)) (fun a ha => by
        match a with
        | ⟨0, _⟩ => rfl
        | ⟨1, _⟩ => rfl
        | ⟨2, _⟩ => rfl
        | ⟨3, _⟩ => exact absurd rfl ha) (by show 0 + 1 = e.val; omega)).trans ?_
    rw [val_main_v7_apply]
    exact zeros_apply _

end Cert.Hadamard.RefValue

end
-- ==== Proof.lean ====
/- The proof of `Cert.Claim` (proofs.«169830_j31731218383235_2_alg».proof.Defs): a scaled Hadamard transform
   `y[b, s, f] = (∑ₖ x[b, s, k] · H[f, k]) / √1024`, returned with a zero imaginary slot as `[4, 4096, 1024, 2]`.

   The kernel flattens `x` to 16384 rows, multiplies 512 rows at a time against all of `H` (contracting the last
   axes of both), scales by the literal `2⁻⁵`, and writes each product next to a zero, so that column `2 f + e` of
   its `[16384, 2048]` output is slot `e` of coefficient `f`; the output is then re-read as `[4, 4096, 1024, 2]`.
   The reference contracts `x` with `H` in one product, scales by `1 / √1024`, and joins the result with zeros
   along a new last axis. On the extended reals both are one function of the arguments (Proof/Spec.lean): the two
   contractions are the same sum term by term, and the two scales are the same real number `1/32`, since
   `√1024 = 32` (Proof/Consts.lean). No entry is moved across a sum, so the inputs' finiteness is not used.

   Proof/Payload.lean reads the body's stored value at an index; Proof/KernelValue.lean carries it through the row
   blocks and the two re-readings to the program's result; Proof/RefValue.lean reads the reference's result. The
   three frames are the generated ones (the reference's is its run with the result dropped); no operation was
   rewritten by the idealization, so there is nothing to preserve. -/
import proofs.«169830_j31731218383235_2_alg».proof.Defs
import proofs.«169830_j31731218383235_2_alg».proof.Proof.Gen.Kernel
import proofs.«169830_j31731218383235_2_alg».proof.Proof.Gen.Kernel.Skeleton
import proofs.«169830_j31731218383235_2_alg».proof.Proof.Gen.Kernel.Launch
import proofs.«169830_j31731218383235_2_alg».proof.Proof.Gen.Kernel.Points
import proofs.«169830_j31731218383235_2_alg».proof.Proof.Gen.Kernel.Frame
import proofs.«169830_j31731218383235_2_alg».proof.Proof.Gen.KernelIdeal
import proofs.«169830_j31731218383235_2_alg».proof.Proof.Gen.KernelIdeal.Skeleton
import proofs.«169830_j31731218383235_2_alg».proof.Proof.Gen.KernelIdeal.Launch
import proofs.«169830_j31731218383235_2_alg».proof.Proof.Gen.KernelIdeal.Points
import proofs.«169830_j31731218383235_2_alg».proof.Proof.Gen.KernelIdeal.Frame
import proofs.«169830_j31731218383235_2_alg».proof.Proof.Gen.ReferenceIdeal
import proofs.«169830_j31731218383235_2_alg».proof.Proof.Gen.ReferenceIdeal.Run
import proofs.«169830_j31731218383235_2_alg».proof.Proof.Gen.ReferenceIdeal.Read
import proofs.«169830_j31731218383235_2_alg».proof.Proof.Gen.Pre_finite_inputs
import proofs.«169830_j31731218383235_2_alg».proof.Proof.KernelValue
import proofs.«169830_j31731218383235_2_alg».proof.Proof.RefValue
import Idealize.ShloMosaic.Adequacy
import Idealize.ShloMosaic.Init

noncomputable section

namespace Cert.Proof

open Idealize.ShloMosaic Idealize.SL.Sem

/-- The kernel as printed runs, and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `H`, both programs end with the specification of those arrays. -/
theorem algebraic : Cert.algebraic_KernelIdeal_ReferenceIdeal := by
  intro m ρ m' ρ' _ hagree
  refine ⟨fun c => Cert.Hadamard.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)),
    Cert.Hadamard.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Hadamard.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
